-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x128 : Shape := ⟨2, ![65536, 128]⟩
abbrev S256x512 : Shape := ⟨2, ![256, 512]⟩
abbrev S128x512 : Shape := ⟨2, ![128, 512]⟩
abbrev S3x512 : Shape := ⟨2, ![3, 512]⟩
abbrev S512x512 : Shape := ⟨2, ![512, 512]⟩
abbrev S512x256 : Shape := ⟨2, ![512, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S256x512 : S_.BroadcastsInDim S256x512 (![] : Fin 0 → Fin S256x512.rank)
  reducesTo_S256x512_S_d0_1 : S256x512.ReducesTo [0, 1] S_
  bcast_S_S128x512 : S_.BroadcastsInDim S128x512 (![] : Fin 0 → Fin S128x512.rank)
  reducesTo_S128x512_S_d0_1 : S128x512.ReducesTo [0, 1] S_
  bcast_S_S3x512 : S_.BroadcastsInDim S3x512 (![] : Fin 0 → Fin S3x512.rank)
  reducesTo_S3x512_S_d0_1 : S3x512.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S3x512 .f32) (main_arg5 : FVec F S512x512 .f32) (main_arg6 : FVec F S512x256 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S3x512 .f32 := Host.absf main_arg4
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S65536x256 .f32) (main_arg1 : FVec F S65536x128 .f32) (main_arg2 : FVec F S256x512 .f32) (main_arg3 : FVec F S128x512 .f32) (main_arg4 : FVec F S3x512 .f32) (main_arg5 : FVec F S512x512 .f32) (main_arg6 : FVec F S512x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_v13 main_v16
-- ==== Kernel.lean ====
abbrev S65536x256 : Shape := ⟨2, ![65536, 256]⟩
abbrev S65536x128 : Shape := ⟨2, ![65536, 128]⟩
abbrev S256x512 : Shape := ⟨2, ![256, 512]⟩
abbrev S128x512 : Shape := ⟨2, ![128, 512]⟩
abbrev S3x512 : Shape := ⟨2, ![3, 512]⟩
abbrev S512x512 : Shape := ⟨2, ![512, 512]⟩
abbrev S512x256 : Shape := ⟨2, ![512, 256]⟩
abbrev S4096x256 : Shape := ⟨2, ![4096, 256]⟩
abbrev S4096x128 : Shape := ⟨2, ![4096, 128]⟩
abbrev S4096x512 : Shape := ⟨2, ![4096, 512]⟩
abbrev S1x512 : Shape := ⟨2, ![1, 512]⟩
abbrev S1x256 : Shape := ⟨2, ![1, 256]⟩

abbrev nBuf : Space → Nat
  | .hbm => 8
  | .vmem => 15
  | .smem => 0
  | _ => 0

abbrev bufTy : (tb : Table) → Fin (tcTables nBuf tb) → BufTy
  | .hbm, ⟨0, _⟩ => ⟨S65536x256, .f32⟩
  | .hbm, ⟨1, _⟩ => ⟨S65536x128, .f32⟩
  | .hbm, ⟨2, _⟩ => ⟨S256x512, .f32⟩
  | .hbm, ⟨3, _⟩ => ⟨S128x512, .f32⟩
  | .hbm, ⟨4, _⟩ => ⟨S3x512, .f32⟩
  | .hbm, ⟨5, _⟩ => ⟨S512x512, .f32⟩
  | .hbm, ⟨6, _⟩ => ⟨S512x256, .f32⟩
  | .hbm, ⟨7, _⟩ => ⟨S65536x256, .f32⟩
  | .local _ .vmem, ⟨0, _⟩ => ⟨S4096x256, .f32⟩
  | .local _ .vmem, ⟨1, _⟩ => ⟨S4096x256, .f32⟩
  | .local _ .vmem, ⟨2, _⟩ => ⟨S4096x128, .f32⟩
  | .local _ .vmem, ⟨3, _⟩ => ⟨S4096x128, .f32⟩
  | .local _ .vmem, ⟨4, _⟩ => ⟨S256x512, .f32⟩
  | .local _ .vmem, ⟨5, _⟩ => ⟨S128x512, .f32⟩
  | .local _ .vmem, ⟨6, _⟩ => ⟨S3x512, .f32⟩
  | .local _ .vmem, ⟨7, _⟩ => ⟨S512x512, .f32⟩
  | .local _ .vmem, ⟨8, _⟩ => ⟨S512x256, .f32⟩
  | .local _ .vmem, ⟨9, _⟩ => ⟨S4096x256, .f32⟩
  | .local _ .vmem, ⟨10, _⟩ => ⟨S4096x256, .f32⟩
  | .local _ .vmem, ⟨11, _⟩ => ⟨S256x512, .bf16⟩
  | .local _ .vmem, ⟨12, _⟩ => ⟨S128x512, .bf16⟩
  | .local _ .vmem, ⟨13, _⟩ => ⟨S512x512, .bf16⟩
  | .local _ .vmem, ⟨14, _⟩ => ⟨S512x256, .bf16⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  shapeCasts_S256x512_S256x512 : S256x512.ShapeCasts S256x512
  packedbf16_S256x512_S256x512_0_0 : (Rect.unit (s := S256x512) ![0, 0] S256x512.size inb_S256x512_S256x512_0_0).PackedRows (EltTy.packing .bf16)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  packedbf16_S128x512_S128x512_0_0 : (Rect.unit (s := S128x512) ![0, 0] S128x512.size inb_S128x512_S128x512_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S3x512_S3x512_0_0 : ∀ a, (![0, 0] : Fin 2 → Nat) a + S3x512.size a ≤ S3x512.size a
  h_S3x512 : 0 < S3x512.numel
  inb_S4096x256_S4096x256_0_0 : ∀ a, (![0, 0] : Fin 2 → Nat) a + S4096x256.size a ≤ S4096x256.size a
  h_S4096x256 : 0 < S4096x256.numel
  inb_S4096x128_S4096x128_0_0 : ∀ a, (![0, 0] : Fin 2 → Nat) a + S4096x128.size a ≤ S4096x128.size a
  h_S4096x128 : 0 < S4096x128.numel
  slices_S3x512_o0_0_S1x512 : S3x512.Slices ![0, 0] S1x512
  broadcasts_S1x512_S4096x512 : S1x512.Broadcasts S4096x512
  slices_S3x512_o1_0_S1x512 : S3x512.Slices ![1, 0] S1x512
  slices_S3x512_o2_0_S1x256 : S3x512.Slices ![2, 0] S1x256
  broadcasts_S1x256_S4096x256 : S1x256.Broadcasts S4096x256
  dot_S4096x256_S256x512_S4096x512_1_0_0_1_n_n_wf : DotDims.WF S4096x256 S256x512 S4096x512 [1] [0] [0] [1] [] []
  dot_S4096x128_S128x512_S4096x512_1_0_0_1_n_n_wf : DotDims.WF S4096x128 S128x512 S4096x512 [1] [0] [0] [1] [] []
  dot_S4096x512_S512x512_S4096x512_1_0_0_1_n_n_wf : DotDims.WF S4096x512 S512x512 S4096x512 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S65536x256.size a
  hwx0_7 : ∀ i : grid0.Coords, EltTy.bits .f32 = 32 ∨ (Rect.block (s := S65536x256) S4096x256.size (cc0_transform_7 i) (hinb0_7 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x128 : Shape := ⟨2, ![65536, 128]⟩
abbrev S256x512 : Shape := ⟨2, ![256, 512]⟩
abbrev S128x512 : Shape := ⟨2, ![128, 512]⟩
abbrev S3x512 : Shape := ⟨2, ![3, 512]⟩
abbrev S512x512 : Shape := ⟨2, ![512, 512]⟩
abbrev S512x256 : Shape := ⟨2, ![512, 256]⟩
abbrev S1024x256 : Shape := ⟨2, ![1024, 256]⟩
abbrev S1024x128 : Shape := ⟨2, ![1024, 128]⟩
abbrev S1024x512 : Shape := ⟨2, ![1024, 512]⟩
abbrev S1x512 : Shape := ⟨2, ![1, 512]⟩
abbrev S1x256 : Shape := ⟨2, ![1, 256]⟩

abbrev nBuf : Space → Nat
  | .hbm => 8
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S65536x128, .f32⟩
  | .hbm, ⟨2, _⟩ => ⟨S256x512, .f32⟩
  | .hbm, ⟨3, _⟩ => ⟨S128x512, .f32⟩
  | .hbm, ⟨4, _⟩ => ⟨S3x512, .f32⟩
  | .hbm, ⟨5, _⟩ => ⟨S512x512, .f32⟩
  | .hbm, ⟨6, _⟩ => ⟨S512x256, .f32⟩
  | .hbm, ⟨7, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S256x512, .f32⟩
  | .local _ .vmem, ⟨5, _⟩ => ⟨S128x512, .f32⟩
  | .local _ .vmem, ⟨6, _⟩ => ⟨S3x512, .f32⟩
  | .local _ .vmem, ⟨7, _⟩ => ⟨S512x512, .f32⟩
  | .local _ .vmem, ⟨8, _⟩ => ⟨S512x256, .f32⟩
  | .local _ .vmem, ⟨9, _⟩ => ⟨S1024x256, .f32⟩
  | .local _ .vmem, ⟨10, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  inb_S1024x128_S1024x128_0_0 : ∀ a, (![0, 0] : Fin 2 → Nat) a + S1024x128.size a ≤ S1024x128.size a
  h_S1024x128 : 0 < S1024x128.numel
  inb_S3x512_S3x512_0_0 : ∀ a, (![0, 0] : Fin 2 → Nat) a + S3x512.size a ≤ S3x512.size a
  h_S3x512 : 0 < S3x512.numel
  inb_S256x512_S256x512_0_0 : ∀ a, (![0, 0] : Fin 2 → Nat) a + S256x512.size a ≤ S256x512.size a
  h_S256x512 : 0 < S256x512.numel
  inb_S128x512_S128x512_0_0 : ∀ a, (![0, 0] : Fin 2 → Nat) a + S128x512.size a ≤ S128x512.size a
  h_S128x512 : 0 < S128x512.numel
  slices_S3x512_o0_0_S1x512 : S3x512.Slices ![0, 0] S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  slices_S3x512_o1_0_S1x512 : S3x512.Slices ![1, 0] S1x512
  inb_S512x256_S512x256_0_0 : ∀ a, (![0, 0] : Fin 2 → Nat) a + S512x256.size a ≤ S512x256.size a
  h_S512x256 : 0 < S512x256.numel
  slices_S3x512_o2_0_S1x256 : S3x512.Slices ![2, 0] S1x256
  broadcasts_S1x256_S1024x256 : S1x256.Broadcasts S1024x256
  dot_S1024x256_S256x512_S1024x512_1_0_0_1_n_n_wf : DotDims.WF S1024x256 S256x512 S1024x512 [1] [0] [0] [1] [] []
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.KernelPieces.lean ====
/- What the kernel's body leaves behind at a grid point, read off the pieces its two runs found.

   The body first — at the first point only — narrows the four weight matrices to bf16 and stores them whole into four
   scratch buffers that persist from point to point; then, at every point, it loads the biases, its block of state rows
   and of action rows and the four scratch buffers, computes the three layers and stores the result block whole.

   So at the first point each scratch ends at the narrowed weight block (`firstCopy0` … `firstCopy3`) and the output block at
   the layers of the blocks and of those just-stored copies, read back (`firstBlock`); at a later point the scratch is not
   touched (the generated terms say so by definition) and the output block is the layers of the blocks and of whatever the
   scratch held (`laterBlock`). Every store and load is through the whole buffer at offset zero, which is what collapses
   each read of a list of pieces to the one payload. For any float instance. -/
import proofs.«129064_g2000503642115552_pallasbulk_442_40_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- The first grid point leaves in scratch `arg9` the narrowed copy of the weight block it loaded. -/
theorem firstCopy0 (c : Dev nD) (i : grid0.Coords) (arg1 : Memref sig .tc .vmem S4096x256 .f32) (harg1 : arg1.IsWhole) (arg2 : Memref sig .tc .vmem S4096x128 .f32) (harg2 : arg2.IsWhole) (arg3 : Memref sig .tc .vmem S256x512 .f32) (harg3 : arg3.IsWhole) (arg4 : Memref sig .tc .vmem S128x512 .f32) (harg4 : arg4.IsWhole) (arg5 : Memref sig .tc .vmem S3x512 .f32) (harg5 : arg5.IsWhole) (arg6 : Memref sig .tc .vmem S512x512 .f32) (harg6 : arg6.IsWhole) (arg7 : Memref sig .tc .vmem S512x256 .f32) (harg7 : arg7.IsWhole) (arg8 : Memref sig .tc .vmem S4096x256 .f32) (harg8 : arg8.IsWhole) (arg9 : Memref sig .tc .vmem S256x512 .bf16) (harg9 : arg9.IsWhole) (arg10 : Memref sig .tc .vmem S128x512 .bf16) (harg10 : arg10.IsWhole) (arg11 : Memref sig .tc .vmem S512x512 .bf16) (harg11 : arg11.IsWhole) (arg12 : Memref sig .tc .vmem S512x256 .bf16) (harg12 : arg12.IsWhole) (hc0 : cond0_0 i) (x0 : Vec F S4096x256 .f32) (x1 : Vec F S4096x128 .f32) (x2 : Vec F S256x512 .f32) (x3 : Vec F S128x512 .f32) (x4 : Vec F S3x512 .f32) (x5 : Vec F S512x512 .f32) (x6 : Vec F S512x256 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = k0_pay1 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  try sl_unfold_words
  rw [View.canon_unit_zero origin]
  simp only [View.readAt_eq_ld, harg3.read_unread, View.ld_unit_zero (S := S256x512) origin]

/-- The first grid point leaves in scratch `arg10` the narrowed copy of the weight block it loaded. -/
theorem firstCopy1 (c : Dev nD) (i : grid0.Coords) (arg1 : Memref sig .tc .vmem S4096x256 .f32) (harg1 : arg1.IsWhole) (arg2 : Memref sig .tc .vmem S4096x128 .f32) (harg2 : arg2.IsWhole) (arg3 : Memref sig .tc .vmem S256x512 .f32) (harg3 : arg3.IsWhole) (arg4 : Memref sig .tc .vmem S128x512 .f32) (harg4 : arg4.IsWhole) (arg5 : Memref sig .tc .vmem S3x512 .f32) (harg5 : arg5.IsWhole) (arg6 : Memref sig .tc .vmem S512x512 .f32) (harg6 : arg6.IsWhole) (arg7 : Memref sig .tc .vmem S512x256 .f32) (harg7 : arg7.IsWhole) (arg8 : Memref sig .tc .vmem S4096x256 .f32) (harg8 : arg8.IsWhole) (arg9 : Memref sig .tc .vmem S256x512 .bf16) (harg9 : arg9.IsWhole) (arg10 : Memref sig .tc .vmem S128x512 .bf16) (harg10 : arg10.IsWhole) (arg11 : Memref sig .tc .vmem S512x512 .bf16) (harg11 : arg11.IsWhole) (arg12 : Memref sig .tc .vmem S512x256 .bf16) (harg12 : arg12.IsWhole) (hc0 : cond0_0 i) (x0 : Vec F S4096x256 .f32) (x1 : Vec F S4096x128 .f32) (x2 : Vec F S256x512 .f32) (x3 : Vec F S128x512 .f32) (x4 : Vec F S3x512 .f32) (x5 : Vec F S512x512 .f32) (x6 : Vec F S512x256 .f32) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = k0_pay2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  try sl_unfold_words
  rw [View.canon_unit_zero origin]
  simp only [View.readAt_eq_ld, harg4.read_unread, View.ld_unit_zero (S := S128x512) origin]

/-- The first grid point leaves in scratch `arg11` the narrowed copy of the weight block it loaded. -/
theorem firstCopy2 (c : Dev nD) (i : grid0.Coords) (arg1 : Memref sig .tc .vmem S4096x256 .f32) (harg1 : arg1.IsWhole) (arg2 : Memref sig .tc .vmem S4096x128 .f32) (harg2 : arg2.IsWhole) (arg3 : Memref sig .tc .vmem S256x512 .f32) (harg3 : arg3.IsWhole) (arg4 : Memref sig .tc .vmem S128x512 .f32) (harg4 : arg4.IsWhole) (arg5 : Memref sig .tc .vmem S3x512 .f32) (harg5 : arg5.IsWhole) (arg6 : Memref sig .tc .vmem S512x512 .f32) (harg6 : arg6.IsWhole) (arg7 : Memref sig .tc .vmem S512x256 .f32) (harg7 : arg7.IsWhole) (arg8 : Memref sig .tc .vmem S4096x256 .f32) (harg8 : arg8.IsWhole) (arg9 : Memref sig .tc .vmem S256x512 .bf16) (harg9 : arg9.IsWhole) (arg10 : Memref sig .tc .vmem S128x512 .bf16) (harg10 : arg10.IsWhole) (arg11 : Memref sig .tc .vmem S512x512 .bf16) (harg11 : arg11.IsWhole) (arg12 : Memref sig .tc .vmem S512x256 .bf16) (harg12 : arg12.IsWhole) (hc0 : cond0_0 i) (x0 : Vec F S4096x256 .f32) (x1 : Vec F S4096x128 .f32) (x2 : Vec F S256x512 .f32) (x3 : Vec F S128x512 .f32) (x4 : Vec F S3x512 .f32) (x5 : Vec F S512x512 .f32) (x6 : Vec F S512x256 .f32) :
    sout0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = k0_pay3 x5 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  try sl_unfold_words
  rw [View.canon_unit_zero origin]
  simp only [View.readAt_eq_ld, harg6.read_unread, View.ld_unit_zero (S := S512x512) origin]

/-- The first grid point leaves in scratch `arg12` the narrowed copy of the weight block it loaded. -/
theorem firstCopy3 (c : Dev nD) (i : grid0.Coords) (arg1 : Memref sig .tc .vmem S4096x256 .f32) (harg1 : arg1.IsWhole) (arg2 : Memref sig .tc .vmem S4096x128 .f32) (harg2 : arg2.IsWhole) (arg3 : Memref sig .tc .vmem S256x512 .f32) (harg3 : arg3.IsWhole) (arg4 : Memref sig .tc .vmem S128x512 .f32) (harg4 : arg4.IsWhole) (arg5 : Memref sig .tc .vmem S3x512 .f32) (harg5 : arg5.IsWhole) (arg6 : Memref sig .tc .vmem S512x512 .f32) (harg6 : arg6.IsWhole) (arg7 : Memref sig .tc .vmem S512x256 .f32) (harg7 : arg7.IsWhole) (arg8 : Memref sig .tc .vmem S4096x256 .f32) (harg8 : arg8.IsWhole) (arg9 : Memref sig .tc .vmem S256x512 .bf16) (harg9 : arg9.IsWhole) (arg10 : Memref sig .tc .vmem S128x512 .bf16) (harg10 : arg10.IsWhole) (arg11 : Memref sig .tc .vmem S512x512 .bf16) (harg11 : arg11.IsWhole) (arg12 : Memref sig .tc .vmem S512x256 .bf16) (harg12 : arg12.IsWhole) (hc0 : cond0_0 i) (x0 : Vec F S4096x256 .f32) (x1 : Vec F S4096x128 .f32) (x2 : Vec F S256x512 .f32) (x3 : Vec F S128x512 .f32) (x4 : Vec F S3x512 .f32) (x5 : Vec F S512x512 .f32) (x6 : Vec F S512x256 .f32) :
    sout0_A_3 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = k0_pay4 x6 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  try sl_unfold_words
  rw [View.canon_unit_zero origin]
  simp only [View.readAt_eq_ld, harg7.read_unread, View.ld_unit_zero (S := S512x256) origin]

/-- The first grid point's output block: the three layers of its state and action blocks, the biases, and the narrowed
    weight blocks it has just stored and reads back. -/
theorem firstBlock (c : Dev nD) (i : grid0.Coords) (arg1 : Memref sig .tc .vmem S4096x256 .f32) (harg1 : arg1.IsWhole) (arg2 : Memref sig .tc .vmem S4096x128 .f32) (harg2 : arg2.IsWhole) (arg3 : Memref sig .tc .vmem S256x512 .f32) (harg3 : arg3.IsWhole) (arg4 : Memref sig .tc .vmem S128x512 .f32) (harg4 : arg4.IsWhole) (arg5 : Memref sig .tc .vmem S3x512 .f32) (harg5 : arg5.IsWhole) (arg6 : Memref sig .tc .vmem S512x512 .f32) (harg6 : arg6.IsWhole) (arg7 : Memref sig .tc .vmem S512x256 .f32) (harg7 : arg7.IsWhole) (arg8 : Memref sig .tc .vmem S4096x256 .f32) (harg8 : arg8.IsWhole) (arg9 : Memref sig .tc .vmem S256x512 .bf16) (harg9 : arg9.IsWhole) (arg10 : Memref sig .tc .vmem S128x512 .bf16) (harg10 : arg10.IsWhole) (arg11 : Memref sig .tc .vmem S512x512 .bf16) (harg11 : arg11.IsWhole) (arg12 : Memref sig .tc .vmem S512x256 .bf16) (harg12 : arg12.IsWhole) (hc0 : cond0_0 i) (x0 : Vec F S4096x256 .f32) (x1 : Vec F S4096x128 .f32) (x2 : Vec F S256x512 .f32) (x3 : Vec F S128x512 .f32) (x4 : Vec F S3x512 .f32) (x5 : Vec F S512x512 .f32) (x6 : Vec F S512x256 .f32) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = k0_pay5 x4 x0 x1 (k0_pay1 x2) (k0_pay2 x3) (k0_pay3 x5) (k0_pay4 x6) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  try sl_unfold_words
  rw [View.canon_unit_zero origin]
  simp only [View.readAt_eq_ld, harg1.read_unread, harg2.read_unread, harg3.read_unread, harg4.read_unread, harg5.read_unread,
    harg6.read_unread, harg7.read_unread, View.ld_unit_zero (S := S4096x256) origin, View.ld_unit_zero (S := S4096x128) origin,
    View.ld_unit_zero (S := S3x512) origin, View.ld_unit_zero (S := S256x512) origin, View.ld_unit_zero (S := S128x512) origin,
    View.ld_unit_zero (S := S512x512) origin, View.ld_unit_zero (S := S512x256) origin,
    View.readCov_unit_zero (S := S256x512) _ origin, View.readCov_unit_zero (S := S128x512) _ origin,
    View.readCov_unit_zero (S := S512x512) _ origin, View.readCov_unit_zero (S := S512x256) _ origin]

/-- A later grid point's output block: the three layers of its state and action blocks, the biases, and what the four
    scratch buffers hold. -/
theorem laterBlock (c : Dev nD) (i : grid0.Coords) (arg1 : Memref sig .tc .vmem S4096x256 .f32) (harg1 : arg1.IsWhole) (arg2 : Memref sig .tc .vmem S4096x128 .f32) (harg2 : arg2.IsWhole) (arg3 : Memref sig .tc .vmem S256x512 .f32) (harg3 : arg3.IsWhole) (arg4 : Memref sig .tc .vmem S128x512 .f32) (harg4 : arg4.IsWhole) (arg5 : Memref sig .tc .vmem S3x512 .f32) (harg5 : arg5.IsWhole) (arg6 : Memref sig .tc .vmem S512x512 .f32) (harg6 : arg6.IsWhole) (arg7 : Memref sig .tc .vmem S512x256 .f32) (harg7 : arg7.IsWhole) (arg8 : Memref sig .tc .vmem S4096x256 .f32) (harg8 : arg8.IsWhole) (arg9 : Memref sig .tc .vmem S256x512 .bf16) (harg9 : arg9.IsWhole) (arg10 : Memref sig .tc .vmem S128x512 .bf16) (harg10 : arg10.IsWhole) (arg11 : Memref sig .tc .vmem S512x512 .bf16) (harg11 : arg11.IsWhole) (arg12 : Memref sig .tc .vmem S512x256 .bf16) (harg12 : arg12.IsWhole) (hc0 : ¬cond0_0 i) (x0 : Vec F S4096x256 .f32) (x1 : Vec F S4096x128 .f32) (x2 : Vec F S256x512 .f32) (x3 : Vec F S128x512 .f32) (x4 : Vec F S3x512 .f32) (x5 : Vec F S512x512 .f32) (x6 : Vec F S512x256 .f32) (xs0 : Vec F S256x512 .bf16) (xs1 : Vec F S128x512 .bf16) (xs2 : Vec F S512x512 .bf16) (xs3 : Vec F S512x256 .bf16) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 xs3 = k0_pay5 x4 x0 x1 xs0 xs1 xs2 xs3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 xs3)]
  unfold kernelRun0_B
  dsimp only
  try sl_unfold_words
  rw [View.canon_unit_zero origin]
  simp only [View.readAt_eq_ld, harg1.read_unread, harg2.read_unread, harg5.read_unread, harg9.read_unread, harg10.read_unread,
    harg11.read_unread, harg12.read_unread, View.ld_unit_zero (S := S4096x256) origin, View.ld_unit_zero (S := S4096x128) origin,
    View.ld_unit_zero (S := S3x512) origin, View.ld_unit_zero (S := S256x512) origin, View.ld_unit_zero (S := S128x512) origin,
    View.ld_unit_zero (S := S512x512) origin, View.ld_unit_zero (S := S512x256) origin]

end Cert.KernelIdeal.Pieces

end
-- ==== Proof.MlpSpec.lean ====
/- The function both programs compute, on the extended reals: a perceptron of two rectified hidden layers of 512 units and
   a linear output layer of 256, applied to each of the rows of a state matrix (256 columns) and an action matrix (128
   columns) independently. With the weights W1s [256,512], W1a [128,512], W2 [512,512], W3 [512,256] and the packed biases
   B [3,512], row p of the result is

     h1 j = max (sum_i s(p,i) W1s(i,j) + sum_i a(p,i) W1a(i,j) + B(0,j)) 0
     h2 k = max (sum_j h1 j W2(j,k) + B(1,k)) 0
     out c = sum_k h2 k W3(k,c) + B(2,c)          (c < 256: the third bias row is cut to the output's width).

   A row's result depends on that row of the state and of the action and on nothing else of them: that is why the rows
   may be dealt to grid points in blocks of any height, and why two programs that deal them differently agree.

   `biasRow_apply` reads the one layout step the programs share — a row of B cut to a width and repeated down the rows of a
   block — at an entry. A change of float format is the identity on the extended reals, so a program that narrows its
   operands to bf16 before each product computes the same function. -/
import Idealize.ShloMosaic.PureOps.Ideal
import Idealize.ShloMosaic.Lib.ValueIdx
import Idealize.ShloMosaic.Lib.Pipeline.Value
import Idealize.ShloMosaic.Lib.ValueLayout

noncomputable section

open scoped BigOperators

open Idealize.ShloMosaic Idealize.ShloMosaic.ValueIdx

namespace Cert.Mlp

/-- A matrix of extended reals with `a` rows and `b` columns. -/
abbrev Mat (a b : ℕ) : Type := (⟨2, ![a, b]⟩ : Shape).Idx → EReal

/-- The zero both rectifiers compare with, as the programs spell it. -/
abbrev zero : EReal := Ideal.ofBits .f32 0x00000000#32

variable {R : ℕ}

/-- The first hidden layer of row `p`, unit `j`. -/
def hid1 (s : Mat R 256) (a : Mat R 128) (w1s : Mat 256 512) (w1a : Mat 128 512) (b : Mat 3 512) (p : Fin R) (j : Fin 512) : EReal :=
  max ((∑ i : Fin 256, s (ix2 p i) * w1s (ix2 i j)) + (∑ i : Fin 128, a (ix2 p i) * w1a (ix2 i j)) + b (ix2 (0 : Fin 3) j)) zero

/-- The second hidden layer of row `p`, unit `k`. -/
def hid2 (s : Mat R 256) (a : Mat R 128) (w1s : Mat 256 512) (w1a : Mat 128 512) (b : Mat 3 512) (w2 : Mat 512 512)
    (p : Fin R) (k : Fin 512) : EReal :=
  max ((∑ j : Fin 512, hid1 s a w1s w1a b p j * w2 (ix2 j k)) + b (ix2 (1 : Fin 3) k)) zero

/-- The output of row `p`, column `c`. -/
def out (s : Mat R 256) (a : Mat R 128) (w1s : Mat 256 512) (w1a : Mat 128 512) (b : Mat 3 512) (w2 : Mat 512 512)
    (w3 : Mat 512 256) (p : Fin R) (c : Fin 256) : EReal :=
  (∑ k : Fin 512, hid2 s a w1s w1a b w2 p k * w3 (ix2 k c)) + b (ix2 (2 : Fin 3) (Fin.castLE (by decide) c))

/-- The whole result: `out` at every row and column. -/
def net (s : Mat R 256) (a : Mat R 128) (w1s : Mat 256 512) (w1a : Mat 128 512) (b : Mat 3 512) (w2 : Mat 512 512)
    (w3 : Mat 512 256) : Mat R 256 :=
  fun i => out s a w1s w1a b w2 w3 (i 0) (i 1)

theorem net_apply (s : Mat R 256) (a : Mat R 128) (w1s : Mat 256 512) (w1a : Mat 128 512) (b : Mat 3 512) (w2 : Mat 512 512)
    (w3 : Mat 512 256) (p : Fin R) (c : Fin 256) : net s a w1s w1a b w2 w3 (ix2 p c) = out s a w1s w1a b w2 w3 p c := rfl

/-- A row's result is a function of that row of the state and of the action alone: two pairs of matrices, of any heights,
    that agree on row `p` of the one and row `p'` of the other give the same result there. -/
theorem out_rows {R' : ℕ} (s : Mat R 256) (a : Mat R 128) (s' : Mat R' 256) (a' : Mat R' 128) (w1s : Mat 256 512) (w1a : Mat 128 512)
    (b : Mat 3 512) (w2 : Mat 512 512) (w3 : Mat 512 256) (p : Fin R) (p' : Fin R')
    (hs : ∀ i : Fin 256, s (ix2 p i) = s' (ix2 p' i)) (ha : ∀ i : Fin 128, a (ix2 p i) = a' (ix2 p' i)) (c : Fin 256) :
    out s a w1s w1a b w2 w3 p c = out s' a' w1s w1a b w2 w3 p' c := by
  unfold out hid2 hid1
  simp only [hs, ha]

/-- Row `o` of the bias table, cut to `N` columns and repeated down `R` rows, read at (p, c): the table at (o, c). -/
theorem biasRow_apply {N : ℕ} {α : Type} (o : ℕ) (b : (⟨2, ![3, 512]⟩ : Shape).Idx → α)
    (hs : (⟨2, ![3, 512]⟩ : Shape).Slices ![o, 0] ⟨2, ![1, N]⟩) (hb : (⟨2, ![1, N]⟩ : Shape).Broadcasts ⟨2, ![R, N]⟩)
    (p : Fin R) (c : Fin N) (k : Fin 3) (hk : k.val = o) (c' : Fin 512) (hc : c'.val = c.val) :
    broadcastTo ⟨2, ![R, N]⟩ (extractStridedSlice ⟨2, ![1, N]⟩ ![o, 0] b hs) hb (ix2 p c) = b (ix2 k c') :=
  (broadcastTo_1b_ab_apply _ hb p c).trans
    (extractStridedSlice_apply _ b hs (ix2 (0 : Fin 1) c) (ix2 k c') fun ax => by
      match ax with
      | ⟨0, _⟩ => exact hk.trans (Nat.add_zero o).symm
      | ⟨1, _⟩ => exact hc.trans (Nat.zero_add _).symm)

end Cert.Mlp

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.KernelValue.lean ====
/- The kernel's result array, on the extended reals, as one function of its argument arrays.

   The grid has 16 points; point t stages rows 4096 t … 4096 t + 4095 of the state and of the action and writes back
   the same rows of the result, while the four weight matrices and the biases are staged whole at every point. The
   four scratch buffers are written at point 0 with the weights narrowed to bf16 and never again, so after every point
   they hold the narrowed weights (`kept`, by induction over the points) — on the extended reals, the weights
   themselves. Hence at every point the output block is the body's arithmetic on the point's blocks and the weights
   (`block_at`), its entry at (p, q) the perceptron's output for row 4096 t + p of the arguments (`block_entry`,
   `state_rows`, `action_rows`), and the block point t writes back is rows 4096 t … of `result`, the perceptron applied
   to the whole arguments (`written_back`). Every row of the result lies in the block of point (row / 4096), so the
   array ends at `result` (`final`, `run`). -/
import proofs.«129064_g2000503642115552_pallasbulk_442_40_alg».proof.Proof.Gen.KernelIdeal.Value
import proofs.«129064_g2000503642115552_pallasbulk_442_40_alg».proof.Proof.KernelPieces
import proofs.«129064_g2000503642115552_pallasbulk_442_40_alg».proof.Proof.MlpSpec
import proofs.«129064_g2000503642115552_pallasbulk_442_40_alg».proof.Proof.LibPlainMatmul
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

/-! ## The body's arithmetic at an entry -/

/-- Narrowing a weight matrix to bf16 (and the shape cast to its own shape that follows) is the identity on the
    extended reals. -/
theorem narrow1 (w : FVec Ideal S256x512 .f32) : (k0_pay1 (F := Ideal) w : S256x512.Idx → EReal) = w :=
  (shapeCast_self (truncf (F := Ideal) .bf16 w bitsLt_bf16_f32) shapeCasts_S256x512_S256x512).trans rfl
theorem narrow2 (w : FVec Ideal S128x512 .f32) : (k0_pay2 (F := Ideal) w : S128x512.Idx → EReal) = w :=
  (shapeCast_self (truncf (F := Ideal) .bf16 w bitsLt_bf16_f32) shapeCasts_S128x512_S128x512).trans rfl
theorem narrow3 (w : FVec Ideal S512x512 .f32) : (k0_pay3 (F := Ideal) w : S512x512.Idx → EReal) = w :=
  (shapeCast_self (truncf (F := Ideal) .bf16 w bitsLt_bf16_f32) shapeCasts_S512x512_S512x512).trans rfl
theorem narrow4 (w : FVec Ideal S512x256 .f32) : (k0_pay4 (F := Ideal) w : S512x256.Idx → EReal) = w :=
  (shapeCast_self (truncf (F := Ideal) .bf16 w bitsLt_bf16_f32) shapeCasts_S512x256_S512x256).trans rfl

/-- The stored block's entry at (p, q): each product into the zero accumulator is the sum over its contraction
    coordinate of row p against a column, each narrowing is the identity, each bias the table's entry for the column. So
    the entry is the perceptron's output for the block's row p. -/
theorem block_entry (b : FVec Ideal S3x512 .f32) (s : FVec Ideal S4096x256 .f32) (a : FVec Ideal S4096x128 .f32)
    (w1s : FVec Ideal S256x512 .bf16) (w1a : FVec Ideal S128x512 .bf16) (w2 : FVec Ideal S512x512 .bf16) (w3 : FVec Ideal S512x256 .bf16)
    (p : Fin 4096) (q : Fin 256) :
    k0_pay5 (F := Ideal) b s a w1s w1a w2 w3 (ix2 p q) = Cert.Mlp.out s a w1s w1a b w2 w3 p q := by
  have e0 : ∀ j : Fin 512, broadcastTo S4096x512 (extractStridedSlice S1x512 ![0, 0] b slices_S3x512_o0_0_S1x512) broadcasts_S1x512_S4096x512 (ix2 p j)
      = b (ix2 (0 : Fin 3) j) := fun j => Cert.Mlp.biasRow_apply 0 b _ _ p j 0 rfl j rfl
  have e1 : ∀ j : Fin 512, broadcastTo S4096x512 (extractStridedSlice S1x512 ![1, 0] b slices_S3x512_o1_0_S1x512) broadcasts_S1x512_S4096x512 (ix2 p j)
      = b (ix2 (1 : Fin 3) j) := fun j => Cert.Mlp.biasRow_apply 1 b _ _ p j 1 rfl j rfl
  have e2 : broadcastTo S4096x256 (extractStridedSlice S1x256 ![2, 0] b slices_S3x512_o2_0_S1x256) broadcasts_S1x256_S4096x256 (ix2 p q)
      = b (ix2 (2 : Fin 3) (Fin.castLE (by decide) q)) := Cert.Mlp.biasRow_apply 2 b _ _ p q 2 rfl _ rfl
  have m1 : ∀ (l : FVec Ideal S4096x256 .bf16) (r : FVec Ideal S256x512 .bf16) (j : Fin 512),
      matmul dot_S4096x256_S256x512_S4096x512_1_0_0_1_n_n none l r (constant (F := Ideal) S4096x512 .f32 0x00000000#32) (ix2 p j)
        = ∑ k : Fin 256, l (ix2 p k) * r (ix2 k j) := fun l r j => Cert.Lib.PlainMatmul.plain_matmul_zero_apply l r p j
  have m2 : ∀ (l : FVec Ideal S4096x128 .bf16) (r : FVec Ideal S128x512 .bf16) (j : Fin 512),
      matmul dot_S4096x128_S128x512_S4096x512_1_0_0_1_n_n none l r (constant (F := Ideal) S4096x512 .f32 0x00000000#32) (ix2 p j)
        = ∑ k : Fin 128, l (ix2 p k) * r (ix2 k j) := fun l r j => Cert.Lib.PlainMatmul.plain_matmul_zero_apply l r p j
  have m3 : ∀ (l : FVec Ideal S4096x512 .bf16) (r : FVec Ideal S512x512 .bf16) (j : Fin 512),
      matmul dot_S4096x512_S512x512_S4096x512_1_0_0_1_n_n none l r (constant (F := Ideal) S4096x512 .f32 0x00000000#32) (ix2 p j)
        = ∑ k : Fin 512, l (ix2 p k) * r (ix2 k j) := fun l r j => Cert.Lib.PlainMatmul.plain_matmul_zero_apply l r p j
  have m4 : ∀ (l : FVec Ideal S4096x512 .bf16) (r : FVec Ideal S512x256 .bf16) (j : Fin 256),
      matmul dot_S4096x512_S512x256_S4096x256_1_0_0_1_n_n none l r (constant (F := Ideal) S4096x256 .f32 0x00000000#32) (ix2 p j)
        = ∑ k : Fin 512, l (ix2 p k) * r (ix2 k j) := fun l r j => Cert.Lib.PlainMatmul.plain_matmul_zero_apply l r p j
  unfold k0_pay5 Cert.Mlp.out Cert.Mlp.hid2 Cert.Mlp.hid1
  simp only [addf_apply, maximumf_apply, truncf_apply, broadcast_apply, m1, m2, m3, m4, e0, e1, e2]
  rfl

/-! ## The blocks as rows of the arrays -/

/-- The printed index maps, decided over the 16 grid points: the state, the action and the result move one block of rows
    per point … -/
theorem moving_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

/-- … and the weights and the biases stay at block (0, 0). -/
theorem fixed_blocks : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The weight matrices and the biases as the program was launched with them. -/
abbrev w1s (c : Dev nD) : FVec Ideal S256x512 .f32 := m ((c : Thread nD τ).loc main_arg2)
abbrev w1a (c : Dev nD) : FVec Ideal S128x512 .f32 := m ((c : Thread nD τ).loc main_arg3)
abbrev bias (c : Dev nD) : FVec Ideal S3x512 .f32 := m ((c : Thread nD τ).loc main_arg4)
abbrev w2 (c : Dev nD) : FVec Ideal S512x512 .f32 := m ((c : Thread nD τ).loc main_arg5)
abbrev w3 (c : Dev nD) : FVec Ideal S512x256 .f32 := m ((c : Thread nD τ).loc main_arg6)

/-- Window 2's block is the whole of its array at every grid point. -/
theorem whole2 (c : Dev nD) (t : Fin cfg0.N) :
    (iblk m c 2 t : S256x512.Idx → EReal) = (m ((c : Thread nD τ).loc main_arg2) : S256x512.Idx → EReal) := by
  have e0 : win0_2.index t (0 : Fin 2) = 0 := (fixed_blocks t).1
  have e1 : win0_2.index t (1 : Fin 2) = 0 := (fixed_blocks t).2.1
  funext y
  show V m c main_arg2 (((cfg0.win 2).blk t).view.emb y) = V m c main_arg2 y
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 512 + 1 * (y 1).val = (y 1).val; rw [e1]; omega

/-- Window 3's block is the whole of its array at every grid point. -/
theorem whole3 (c : Dev nD) (t : Fin cfg0.N) :
    (iblk m c 3 t : S128x512.Idx → EReal) = (m ((c : Thread nD τ).loc main_arg3) : S128x512.Idx → EReal) := by
  have e0 : win0_3.index t (0 : Fin 2) = 0 := (fixed_blocks t).2.2.1
  have e1 : win0_3.index t (1 : Fin 2) = 0 := (fixed_blocks t).2.2.2.1
  funext y
  show V m c main_arg3 (((cfg0.win 3).blk t).view.emb y) = V m c main_arg3 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 512 + 1 * (y 1).val = (y 1).val; rw [e1]; omega

/-- Window 4's block is the whole of its array at every grid point. -/
theorem whole4 (c : Dev nD) (t : Fin cfg0.N) :
    (iblk m c 4 t : S3x512.Idx → EReal) = (m ((c : Thread nD τ).loc main_arg4) : S3x512.Idx → EReal) := by
  have e0 : win0_4.index t (0 : Fin 2) = 0 := (fixed_blocks t).2.2.2.2.1
  have e1 : win0_4.index t (1 : Fin 2) = 0 := (fixed_blocks t).2.2.2.2.2.1
  funext y
  show V m c main_arg4 (((cfg0.win 4).blk t).view.emb y) = V m c main_arg4 y
  refine congrArg _ (funext fun a => Fin.ext ?_)
  match a with
  | ⟨0, _⟩ => show win0_4.index t (0 : Fin 2) * 3 + 1 * (y 0).val = (y 0).val; rw [e0]; omega
  | ⟨1, _⟩ => show win0_4.index t (1 : Fin 2) * 512 + 1 * (y 1).val = (y 1).val; rw [e1]; omega

/-- Window 5's block is the whole of its array at every grid point. -/
theorem whole5 (c : Dev nD) (t : Fin cfg0.N) :
    (iblk m c 5 t : S512x512.Idx → EReal) = (m ((c : Thread nD τ).loc main_arg5) : S512x512.Idx → EReal) := by
  have e0 : win0_5.index t (0 : Fin 2) = 0 := (fixed_blocks t).2.2.2.2.2.2.1
  have e1 : win0_5.index t (1 : Fin 2) = 0 := (fixed_blocks t).2.2.2.2.2.2.2.1
  funext y
  show V m c main_arg5 (((cfg0.win 5).blk t).view.emb y) = V m c main_arg5 y
  refine congrArg _ (funext fun a => Fin.ext ?_)
  match a with
  | ⟨0, _⟩ => show win0_5.index t (0 : Fin 2) * 512 + 1 * (y 0).val = (y 0).val; rw [e0]; omega
  | ⟨1, _⟩ => show win0_5.index t (1 : Fin 2) * 512 + 1 * (y 1).val = (y 1).val; rw [e1]; omega

/-- Window 6's block is the whole of its array at every grid point. -/
theorem whole6 (c : Dev nD) (t : Fin cfg0.N) :
    (iblk m c 6 t : S512x256.Idx → EReal) = (m ((c : Thread nD τ).loc main_arg6) : S512x256.Idx → EReal) := by
  have e0 : win0_6.index t (0 : Fin 2) = 0 := (fixed_blocks t).2.2.2.2.2.2.2.2.1
  have e1 : win0_6.index t (1 : Fin 2) = 0 := (fixed_blocks t).2.2.2.2.2.2.2.2.2
  funext y
  show V m c main_arg6 (((cfg0.win 6).blk t).view.emb y) = V m c main_arg6 y
  refine congrArg _ (funext fun a => Fin.ext ?_)
  match a with
  | ⟨0, _⟩ => show win0_6.index t (0 : Fin 2) * 512 + 1 * (y 0).val = (y 0).val; rw [e0]; omega
  | ⟨1, _⟩ => show win0_6.index t (1 : Fin 2) * 256 + 1 * (y 1).val = (y 1).val; rw [e1]; omega

/-- Row p of the state block at point t is row 4096 t + p of the state. -/
theorem state_rows (c : Dev nD) (t : Fin cfg0.N) (p : Fin 4096) (P : Fin 65536) (hP : P.val = t.val * 4096 + p.val) (i : Fin 256) :
    (iblk m c 0 t : S4096x256.Idx → EReal) (ix2 p i) = (m ((c : Thread nD τ).loc main_arg0) : S65536x256.Idx → EReal) (ix2 P i) := by
  obtain ⟨e0, e1, -⟩ := moving_blocks t
  show V m c main_arg0 (((cfg0.win 0).blk t).view.emb (ix2 p i)) = V m c main_arg0 (ix2 P i)
  refine congrArg _ (funext fun a => Fin.ext ?_)
  match a with
  | ⟨0, _⟩ => show win0_0.index t (0 : Fin 2) * 4096 + 1 * p.val = P.val; rw [e0, hP]; omega
  | ⟨1, _⟩ => show win0_0.index t (1 : Fin 2) * 256 + 1 * i.val = i.val; rw [e1]; omega

/-- Row p of the action block at point t is row 4096 t + p of the action. -/
theorem action_rows (c : Dev nD) (t : Fin cfg0.N) (p : Fin 4096) (P : Fin 65536) (hP : P.val = t.val * 4096 + p.val) (i : Fin 128) :
    (iblk m c 1 t : S4096x128.Idx → EReal) (ix2 p i) = (m ((c : Thread nD τ).loc main_arg1) : S65536x128.Idx → EReal) (ix2 P i) := by
  obtain ⟨-, -, e0, e1, -⟩ := moving_blocks t
  show V m c main_arg1 (((cfg0.win 1).blk t).view.emb (ix2 p i)) = V m c main_arg1 (ix2 P i)
  refine congrArg _ (funext fun a => Fin.ext ?_)
  match a with
  | ⟨0, _⟩ => show win0_1.index t (0 : Fin 2) * 4096 + 1 * p.val = P.val; rw [e0, hP]; omega
  | ⟨1, _⟩ => show win0_1.index t (1 : Fin 2) * 128 + 1 * i.val = i.val; rw [e1]; omega

/-! ## What the scratch buffers and the output block hold, point after point -/

/-- After the body at a grid point the four scratch buffers hold the narrowed weights: the first point stores them (its
    weight blocks are the whole weight arrays), a later point leaves the scratch as the point before left it. -/
theorem kept_at (c : Dev nD) : ∀ (n : ℕ) (t : Fin cfg0.N), t.val = n →
    (outsAt0 m c t.val t.isLt).2.1 = k0_pay1 (F := Ideal) (w1s m c) ∧ (outsAt0 m c t.val t.isLt).2.2.1 = k0_pay2 (F := Ideal) (w1a m c)
      ∧ (outsAt0 m c t.val t.isLt).2.2.2.1 = k0_pay3 (F := Ideal) (w2 m c) ∧ (outsAt0 m c t.val t.isLt).2.2.2.2 = k0_pay4 (F := Ideal) (w3 m c) := by
  intro n
  induction n with
  | zero =>
    intro t ht
    have h0 : t.val % 16 = 0 := by omega
    rw [outsAt0_A m c t h0]
    dsimp only
    rw [Pieces.firstCopy0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t),
      Pieces.firstCopy1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t),
      Pieces.firstCopy2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t),
      Pieces.firstCopy3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t),
      whole2 m c t, whole3 m c t, whole5 m c t, whole6 m c t]
    exact ⟨rfl, rfl, rfl, rfl⟩
  | succ n ih =>
    intro t ht
    have hN : cfg0.N = 16 := N_0
    have hlt := t.isLt
    have h0 : ¬t.val % 16 = 0 := by omega
    have hp : t.val - 1 < cfg0.N := by omega
    rw [outsAt0_B m c t h0]
    dsimp only
    exact ih ⟨t.val - 1, hp⟩ (by show t.val - 1 = n; omega)

theorem kept (c : Dev nD) (n : ℕ) (hn : n < cfg0.N) :
    (outsAt0 m c n hn).2.1 = k0_pay1 (F := Ideal) (w1s m c) ∧ (outsAt0 m c n hn).2.2.1 = k0_pay2 (F := Ideal) (w1a m c)
      ∧ (outsAt0 m c n hn).2.2.2.1 = k0_pay3 (F := Ideal) (w2 m c) ∧ (outsAt0 m c n hn).2.2.2.2 = k0_pay4 (F := Ideal) (w3 m c) :=
  kept_at m c n ⟨n, hn⟩ rfl

/-- The output block after the body at point `t`: the body's arithmetic on the point's state rows, action rows and
    biases and on the narrowed weights. -/
theorem block_at (c : Dev nD) (t : Fin cfg0.N) :
    (outsAt0 m c t.val t.isLt).1 = k0_pay5 (F := Ideal) (iblk m c 4 t) (iblk m c 0 t) (iblk m c 1 t) (k0_pay1 (F := Ideal) (w1s m c)) (k0_pay2 (F := Ideal) (w1a m c)) (k0_pay3 (F := Ideal) (w2 m c)) (k0_pay4 (F := Ideal) (w3 m c)) := by
  by_cases h0 : t.val % 16 = 0
  · rw [outsAt0_A m c t h0]
    dsimp only
    rw [Pieces.firstBlock (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t),
      whole2 m c t, whole3 m c t, whole5 m c t, whole6 m c t]
  · obtain ⟨i0, i1, i2, i3⟩ := kept m c (t.val - 1) (Nat.lt_of_le_of_lt (Nat.sub_le _ _) t.isLt)
    rw [outsAt0_B m c t h0]
    dsimp only
    rw [Pieces.laterBlock (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).2.1 (outsAt0 m c (t.val - 1) (Nat.lt_of_le_of_lt (Nat.sub_le _ _) t.isLt)).2.2.1
        (outsAt0 m c (t.val - 1) (Nat.lt_of_le_of_lt (Nat.sub_le _ _) t.isLt)).2.2.2.1 (outsAt0 m c (t.val - 1) (Nat.lt_of_le_of_lt (Nat.sub_le _ _) t.isLt)).2.2.2.2,
      i0, i1, i2, i3]

/-! ## The result array -/

/-- The perceptron applied to the whole argument arrays as the program was launched with them. -/
abbrev result (c : Dev nD) : Buf (Elt Ideal) ((c : Thread nD τ).loc main_v0) :=
  Cert.Mlp.net (R := 65536) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is rows 4096 t … 4096 t + 4095 of `result`. -/
theorem written_back (c : Dev nD) (t : Fin cfg0.N) :
    (dats m 0 c).flushed 7 t = ((cfg0.win 7).blk t).view.read (Elt Ideal) (result m c) := by
  have hN : cfg0.N = 16 := N_0
  obtain ⟨-, -, -, -, e0, e1⟩ := moving_blocks t
  rw [Value.flushed7 m c t, block_at m c t]
  funext j
  obtain ⟨p, q, rfl⟩ : ∃ (p : Fin 4096) (q : Fin 256), j = ix2 p q := ⟨j 0, j 1, eq_ix2 j⟩
  have hlt : t.val * 4096 + p.val < 65536 := by have := t.isLt; have := p.isLt; omega
  have hemb : ((cfg0.win 7).blk t).view.emb (ix2 p q) = (ix2 (⟨t.val * 4096 + p.val, hlt⟩ : Fin 65536) q : S65536x256.Idx) := by
    funext a; apply Fin.ext
    match a with
    | ⟨0, _⟩ => show win0_7.index t (0 : Fin 2) * 4096 + 1 * p.val = t.val * 4096 + p.val; rw [e0]; omega
    | ⟨1, _⟩ => show win0_7.index t (1 : Fin 2) * 256 + 1 * q.val = q.val; rw [e1]; omega
  show k0_pay5 (F := Ideal) (iblk m c 4 t) (iblk m c 0 t) (iblk m c 1 t) (k0_pay1 (F := Ideal) (w1s m c)) (k0_pay2 (F := Ideal) (w1a m c)) (k0_pay3 (F := Ideal) (w2 m c)) (k0_pay4 (F := Ideal) (w3 m c)) (ix2 p q)
    = result m c (((cfg0.win 7).blk t).view.emb (ix2 p q))
  rw [hemb]
  refine (block_entry (iblk m c 4 t) (iblk m c 0 t) (iblk m c 1 t) (k0_pay1 (F := Ideal) (w1s m c)) (k0_pay2 (F := Ideal) (w1a m c)) (k0_pay3 (F := Ideal) (w2 m c)) (k0_pay4 (F := Ideal) (w3 m c)) p q).trans ?_
  rw [narrow1, narrow2, narrow3, narrow4, whole4 m c t]
  exact Cert.Mlp.out_rows _ _ _ _ _ _ _ _ _ p ⟨t.val * 4096 + p.val, hlt⟩ (state_rows m c t p _ rfl) (action_rows m c t p _ rfl) q

/-- An entry of the result array is in point `t`'s block iff each of its coordinates is in the block's range. -/
theorem mem_block (t : Fin cfg0.N) (i : S65536x256.Idx) :
    i ∈ ((cfg0.win 7).blk t).view.set
      ↔ ∀ a : Fin 2, win0_7.index t a * S4096x256.size a ≤ (i a).val ∧ (i a).val < win0_7.index t a * S4096x256.size a + S4096x256.size a := by
  show i ∈ ((View.whole main_v0).slice (win0_7.rect t)).set ↔ _
  rw [View.set_slice_whole, Rect.mem_set_unit]
  exact Iff.rfl

/-- Every entry of the result array lies in the block of the point its row falls to. -/
theorem covered (i : S65536x256.Idx) : ∃ t : Fin cfg0.N, (cfg0.win 7).flush t = true ∧ i ∈ ((cfg0.win 7).blk t).view.set := by
  have hN : cfg0.N = 16 := N_0
  have hi0 : (i 0).val < 65536 := (i 0).isLt
  have hi1 : (i 1).val < 256 := (i 1).isLt
  have hlt : (i 0).val / 4096 < cfg0.N := by rw [hN]; omega
  obtain ⟨-, -, -, -, e0, e1⟩ := moving_blocks ⟨(i 0).val / 4096, hlt⟩
  have e0' : win0_7.index ⟨(i 0).val / 4096, hlt⟩ (0 : Fin 2) = (i 0).val / 4096 := e0
  refine ⟨⟨(i 0).val / 4096, hlt⟩, flush0_7 _, ?_⟩
  rw [mem_block]
  intro a
  match a with
  | ⟨0, _⟩ =>
    show win0_7.index ⟨(i 0).val / 4096, hlt⟩ (0 : Fin 2) * 4096 ≤ (i 0).val
      ∧ (i 0).val < win0_7.index ⟨(i 0).val / 4096, hlt⟩ (0 : Fin 2) * 4096 + 4096
    rw [e0']; omega
  | ⟨1, _⟩ =>
    show win0_7.index ⟨(i 0).val / 4096, hlt⟩ (1 : Fin 2) * 256 ≤ (i 1).val
      ∧ (i 1).val < win0_7.index ⟨(i 0).val / 4096, hlt⟩ (1 : Fin 2) * 256 + 256
    rw [e1]; omega

/-- The result array after the run. -/
theorem final (c : Dev nD) : (dats m 0 c).arrAt 7 cfg0.N = result m c :=
  (dats m 0 c).arrAt_eq_of_cover 7 (result m c) (fun t _ => written_back m c t) covered

/-- The run, read: the result array ends at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Blocks

end
-- ==== Proof.ReferenceValue.lean ====
/- The reference's result array, on the extended reals, as one function of its argument arrays.

   The reference is a pipelined kernel too: its grid has 64 points, point t stages rows 1024 t … 1024 t + 1023 of the
   state and of the action and writes back the same rows of the result; the weight matrices and the biases are staged
   whole at every point and read directly, with no narrowing and no scratch. Its body is the three layers on a block of
   1024 rows, so the block's entry at (p, q) is the perceptron's output for row 1024 t + p of the arguments
   (`block_entry`, `state_rows`, `action_rows`), what point t writes back is rows 1024 t … of `result`, the
   perceptron applied to the whole arguments (`written_back`), and since every row lies in the block of point (row / 1024)
   the array ends at `result` (`final`, `run`). -/
import proofs.«129064_g2000503642115552_pallasbulk_442_40_alg».proof.Proof.Gen.ReferenceIdeal.Value
import proofs.«129064_g2000503642115552_pallasbulk_442_40_alg».proof.Proof.MlpSpec
import proofs.«129064_g2000503642115552_pallasbulk_442_40_alg».proof.Proof.LibPlainMatmul
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.ReferenceIdeal.Blocks

open Cert.ReferenceIdeal Cert.ReferenceIdeal.Gen

variable (m : (ℓ : Loc nD τ sig) → Buf (Elt Ideal) ℓ) (ρ : Dev nD → PrngReg)

/-- Every load and store of the body starts at the origin of its buffer. -/
theorem origin : (![0, 0] : Fin 2 → Nat) = fun _ => 0 := funext fun a => by fin_cases a <;> rfl

/-! ## The body's arithmetic at an entry -/

/-- The stored block's entry at (p, q): each product into the zero accumulator is the sum over its contraction
    coordinate of row p against a column, each bias the table's entry for the column. So the entry is the perceptron's
    output for the block's row p. -/
theorem block_entry (s : FVec Ideal S1024x256 .f32) (a : FVec Ideal S1024x128 .f32) (b : FVec Ideal S3x512 .f32)
    (w1s : FVec Ideal S256x512 .f32) (w1a : FVec Ideal S128x512 .f32) (w2 : FVec Ideal S512x512 .f32) (w3 : FVec Ideal S512x256 .f32)
    (p : Fin 1024) (q : Fin 256) :
    k0_pay1 (F := Ideal) s a b w1s w1a w2 w3 (ix2 p q) = Cert.Mlp.out s a w1s w1a b w2 w3 p q := by
  have e0 : ∀ j : Fin 512, broadcastTo S1024x512 (extractStridedSlice S1x512 ![0, 0] b slices_S3x512_o0_0_S1x512) broadcasts_S1x512_S1024x512 (ix2 p j)
      = b (ix2 (0 : Fin 3) j) := fun j => Cert.Mlp.biasRow_apply 0 b _ _ p j 0 rfl j rfl
  have e1 : ∀ j : Fin 512, broadcastTo S1024x512 (extractStridedSlice S1x512 ![1, 0] b slices_S3x512_o1_0_S1x512) broadcasts_S1x512_S1024x512 (ix2 p j)
      = b (ix2 (1 : Fin 3) j) := fun j => Cert.Mlp.biasRow_apply 1 b _ _ p j 1 rfl j rfl
  have e2 : broadcastTo S1024x256 (extractStridedSlice S1x256 ![2, 0] b slices_S3x512_o2_0_S1x256) broadcasts_S1x256_S1024x256 (ix2 p q)
      = b (ix2 (2 : Fin 3) (Fin.castLE (by decide) q)) := Cert.Mlp.biasRow_apply 2 b _ _ p q 2 rfl _ rfl
  have m1 : ∀ (l : FVec Ideal S1024x256 .f32) (r : FVec Ideal S256x512 .f32) (j : Fin 512),
      matmul dot_S1024x256_S256x512_S1024x512_1_0_0_1_n_n none l r (constant (F := Ideal) S1024x512 .f32 0x00000000#32) (ix2 p j)
        = ∑ k : Fin 256, l (ix2 p k) * r (ix2 k j) := fun l r j => Cert.Lib.PlainMatmul.plain_matmul_zero_apply l r p j
  have m2 : ∀ (l : FVec Ideal S1024x128 .f32) (r : FVec Ideal S128x512 .f32) (j : Fin 512),
      matmul dot_S1024x128_S128x512_S1024x512_1_0_0_1_n_n none l r (constant (F := Ideal) S1024x512 .f32 0x00000000#32) (ix2 p j)
        = ∑ k : Fin 128, l (ix2 p k) * r (ix2 k j) := fun l r j => Cert.Lib.PlainMatmul.plain_matmul_zero_apply l r p j
  have m3 : ∀ (l : FVec Ideal S1024x512 .f32) (r : FVec Ideal S512x512 .f32) (j : Fin 512),
      matmul dot_S1024x512_S512x512_S1024x512_1_0_0_1_n_n none l r (constant (F := Ideal) S1024x512 .f32 0x00000000#32) (ix2 p j)
        = ∑ k : Fin 512, l (ix2 p k) * r (ix2 k j) := fun l r j => Cert.Lib.PlainMatmul.plain_matmul_zero_apply l r p j
  have m4 : ∀ (l : FVec Ideal S1024x512 .f32) (r : FVec Ideal S512x256 .f32) (j : Fin 256),
      matmul dot_S1024x512_S512x256_S1024x256_1_0_0_1_n_n none l r (constant (F := Ideal) S1024x256 .f32 0x00000000#32) (ix2 p j)
        = ∑ k : Fin 512, l (ix2 p k) * r (ix2 k j) := fun l r j => Cert.Lib.PlainMatmul.plain_matmul_zero_apply l r p j
  unfold k0_pay1 Cert.Mlp.out Cert.Mlp.hid2 Cert.Mlp.hid1
  simp only [addf_apply, maximumf_apply, truncf_apply, broadcast_apply, m1, m2, m3, m4, e0, e1, e2]
  rfl

/-! ## The blocks as rows of the arrays -/

/-- The printed index maps, decided over the 64 grid points: the state, the action and the result move one block of rows
    per point; the weights and the biases stay at block (0, 0). -/
theorem moving_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

theorem fixed_blocks : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 2's block is the whole of its array at every grid point. -/
theorem whole2 (c : Dev nD) (t : Fin cfg0.N) :
    (iblk m c 2 t : S256x512.Idx → EReal) = (m ((c : Thread nD τ).loc main_arg2) : S256x512.Idx → EReal) := by
  have e0 : win0_2.index t (0 : Fin 2) = 0 := (fixed_blocks t).1
  have e1 : win0_2.index t (1 : Fin 2) = 0 := (fixed_blocks t).2.1
  funext y
  show V m c main_arg2 (((cfg0.win 2).blk t).view.emb y) = V m c main_arg2 y
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 512 + 1 * (y 1).val = (y 1).val; rw [e1]; omega

/-- Window 3's block is the whole of its array at every grid point. -/
theorem whole3 (c : Dev nD) (t : Fin cfg0.N) :
    (iblk m c 3 t : S128x512.Idx → EReal) = (m ((c : Thread nD τ).loc main_arg3) : S128x512.Idx → EReal) := by
  have e0 : win0_3.index t (0 : Fin 2) = 0 := (fixed_blocks t).2.2.1
  have e1 : win0_3.index t (1 : Fin 2) = 0 := (fixed_blocks t).2.2.2.1
  funext y
  show V m c main_arg3 (((cfg0.win 3).blk t).view.emb y) = V m c main_arg3 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 512 + 1 * (y 1).val = (y 1).val; rw [e1]; omega

/-- Window 4's block is the whole of its array at every grid point. -/
theorem whole4 (c : Dev nD) (t : Fin cfg0.N) :
    (iblk m c 4 t : S3x512.Idx → EReal) = (m ((c : Thread nD τ).loc main_arg4) : S3x512.Idx → EReal) := by
  have e0 : win0_4.index t (0 : Fin 2) = 0 := (fixed_blocks t).2.2.2.2.1
  have e1 : win0_4.index t (1 : Fin 2) = 0 := (fixed_blocks t).2.2.2.2.2.1
  funext y
  show V m c main_arg4 (((cfg0.win 4).blk t).view.emb y) = V m c main_arg4 y
  refine congrArg _ (funext fun a => Fin.ext ?_)
  match a with
  | ⟨0, _⟩ => show win0_4.index t (0 : Fin 2) * 3 + 1 * (y 0).val = (y 0).val; rw [e0]; omega
  | ⟨1, _⟩ => show win0_4.index t (1 : Fin 2) * 512 + 1 * (y 1).val = (y 1).val; rw [e1]; omega

/-- Window 5's block is the whole of its array at every grid point. -/
theorem whole5 (c : Dev nD) (t : Fin cfg0.N) :
    (iblk m c 5 t : S512x512.Idx → EReal) = (m ((c : Thread nD τ).loc main_arg5) : S512x512.Idx → EReal) := by
  have e0 : win0_5.index t (0 : Fin 2) = 0 := (fixed_blocks t).2.2.2.2.2.2.1
  have e1 : win0_5.index t (1 : Fin 2) = 0 := (fixed_blocks t).2.2.2.2.2.2.2.1
  funext y
  show V m c main_arg5 (((cfg0.win 5).blk t).view.emb y) = V m c main_arg5 y
  refine congrArg _ (funext fun a => Fin.ext ?_)
  match a with
  | ⟨0, _⟩ => show win0_5.index t (0 : Fin 2) * 512 + 1 * (y 0).val = (y 0).val; rw [e0]; omega
  | ⟨1, _⟩ => show win0_5.index t (1 : Fin 2) * 512 + 1 * (y 1).val = (y 1).val; rw [e1]; omega

/-- Window 6's block is the whole of its array at every grid point. -/
theorem whole6 (c : Dev nD) (t : Fin cfg0.N) :
    (iblk m c 6 t : S512x256.Idx → EReal) = (m ((c : Thread nD τ).loc main_arg6) : S512x256.Idx → EReal) := by
  have e0 : win0_6.index t (0 : Fin 2) = 0 := (fixed_blocks t).2.2.2.2.2.2.2.2.1
  have e1 : win0_6.index t (1 : Fin 2) = 0 := (fixed_blocks t).2.2.2.2.2.2.2.2.2
  funext y
  show V m c main_arg6 (((cfg0.win 6).blk t).view.emb y) = V m c main_arg6 y
  refine congrArg _ (funext fun a => Fin.ext ?_)
  match a with
  | ⟨0, _⟩ => show win0_6.index t (0 : Fin 2) * 512 + 1 * (y 0).val = (y 0).val; rw [e0]; omega
  | ⟨1, _⟩ => show win0_6.index t (1 : Fin 2) * 256 + 1 * (y 1).val = (y 1).val; rw [e1]; omega

/-- Row p of the state block at point t is row 1024 t + p of the state. -/
theorem state_rows (c : Dev nD) (t : Fin cfg0.N) (p : Fin 1024) (P : Fin 65536) (hP : P.val = t.val * 1024 + p.val) (i : Fin 256) :
    (iblk m c 0 t : S1024x256.Idx → EReal) (ix2 p i) = (m ((c : Thread nD τ).loc main_arg0) : S65536x256.Idx → EReal) (ix2 P i) := by
  obtain ⟨e0, e1, -⟩ := moving_blocks t
  show V m c main_arg0 (((cfg0.win 0).blk t).view.emb (ix2 p i)) = V m c main_arg0 (ix2 P i)
  refine congrArg _ (funext fun a => Fin.ext ?_)
  match a with
  | ⟨0, _⟩ => show win0_0.index t (0 : Fin 2) * 1024 + 1 * p.val = P.val; rw [e0, hP]; omega
  | ⟨1, _⟩ => show win0_0.index t (1 : Fin 2) * 256 + 1 * i.val = i.val; rw [e1]; omega

/-- Row p of the action block at point t is row 1024 t + p of the action. -/
theorem action_rows (c : Dev nD) (t : Fin cfg0.N) (p : Fin 1024) (P : Fin 65536) (hP : P.val = t.val * 1024 + p.val) (i : Fin 128) :
    (iblk m c 1 t : S1024x128.Idx → EReal) (ix2 p i) = (m ((c : Thread nD τ).loc main_arg1) : S65536x128.Idx → EReal) (ix2 P i) := by
  obtain ⟨-, -, e0, e1, -⟩ := moving_blocks t
  show V m c main_arg1 (((cfg0.win 1).blk t).view.emb (ix2 p i)) = V m c main_arg1 (ix2 P i)
  refine congrArg _ (funext fun a => Fin.ext ?_)
  match a with
  | ⟨0, _⟩ => show win0_1.index t (0 : Fin 2) * 1024 + 1 * p.val = P.val; rw [e0, hP]; omega
  | ⟨1, _⟩ => show win0_1.index t (1 : Fin 2) * 128 + 1 * i.val = i.val; rw [e1]; omega

/-! ## The result array -/

/-- The perceptron applied to the whole argument arrays as the program was launched with them. -/
abbrev result (c : Dev nD) : Buf (Elt Ideal) ((c : Thread nD τ).loc main_v0) :=
  Cert.Mlp.net (R := 65536) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is rows 1024 t … 1024 t + 1023 of `result`. -/
theorem written_back (c : Dev nD) (t : Fin cfg0.N) :
    (dats m 0 c).flushed 7 t = ((cfg0.win 7).blk t).view.read (Elt Ideal) (result m c) := by
  have hN : cfg0.N = 64 := N_0
  obtain ⟨-, -, -, -, e0, e1⟩ := moving_blocks t
  rw [Value.flushed7 m c t]
  unfold out0_7
  rw [View.canon_unit_zero origin]
  simp only [View.ld_unit_zero (S := S1024x256) origin, View.ld_unit_zero (S := S1024x128) origin, View.ld_unit_zero (S := S3x512) origin,
    View.ld_unit_zero (S := S256x512) origin, View.ld_unit_zero (S := S128x512) origin, View.ld_unit_zero (S := S512x512) origin,
    View.ld_unit_zero (S := S512x256) origin]
  funext j
  obtain ⟨p, q, rfl⟩ : ∃ (p : Fin 1024) (q : Fin 256), j = ix2 p q := ⟨j 0, j 1, eq_ix2 j⟩
  have hlt : t.val * 1024 + p.val < 65536 := by have := t.isLt; have := p.isLt; omega
  have hemb : ((cfg0.win 7).blk t).view.emb (ix2 p q) = (ix2 (⟨t.val * 1024 + p.val, hlt⟩ : Fin 65536) q : S65536x256.Idx) := by
    funext a; apply Fin.ext
    match a with
    | ⟨0, _⟩ => show win0_7.index t (0 : Fin 2) * 1024 + 1 * p.val = t.val * 1024 + p.val; rw [e0]; omega
    | ⟨1, _⟩ => show win0_7.index t (1 : Fin 2) * 256 + 1 * q.val = q.val; rw [e1]; omega
  show k0_pay1 (iblk m c 0 t) (iblk m c 1 t) (iblk m c 4 t) (iblk m c 2 t) (iblk m c 3 t) (iblk m c 5 t) (iblk m c 6 t) (ix2 p q)
    = result m c (((cfg0.win 7).blk t).view.emb (ix2 p q))
  rw [hemb]
  refine (block_entry (iblk m c 0 t) (iblk m c 1 t) (iblk m c 4 t) (iblk m c 2 t) (iblk m c 3 t) (iblk m c 5 t) (iblk m c 6 t) p q).trans ?_
  rw [whole2 m c t, whole3 m c t, whole4 m c t, whole5 m c t, whole6 m c t]
  exact Cert.Mlp.out_rows _ _ _ _ _ _ _ _ _ p ⟨t.val * 1024 + p.val, hlt⟩ (state_rows m c t p _ rfl) (action_rows m c t p _ rfl) q

/-- An entry of the result array is in point `t`'s block iff each of its coordinates is in the block's range. -/
theorem mem_block (t : Fin cfg0.N) (i : S65536x256.Idx) :
    i ∈ ((cfg0.win 7).blk t).view.set
      ↔ ∀ a : Fin 2, win0_7.index t a * S1024x256.size a ≤ (i a).val ∧ (i a).val < win0_7.index t a * S1024x256.size a + S1024x256.size a := by
  show i ∈ ((View.whole main_v0).slice (win0_7.rect t)).set ↔ _
  rw [View.set_slice_whole, Rect.mem_set_unit]
  exact Iff.rfl

/-- Every entry of the result array lies in the block of the point its row falls to. -/
theorem covered (i : S65536x256.Idx) : ∃ t : Fin cfg0.N, (cfg0.win 7).flush t = true ∧ i ∈ ((cfg0.win 7).blk t).view.set := by
  have hN : cfg0.N = 64 := N_0
  have hi0 : (i 0).val < 65536 := (i 0).isLt
  have hi1 : (i 1).val < 256 := (i 1).isLt
  have hlt : (i 0).val / 1024 < cfg0.N := by rw [hN]; omega
  obtain ⟨-, -, -, -, e0, e1⟩ := moving_blocks ⟨(i 0).val / 1024, hlt⟩
  have e0' : win0_7.index ⟨(i 0).val / 1024, hlt⟩ (0 : Fin 2) = (i 0).val / 1024 := e0
  refine ⟨⟨(i 0).val / 1024, hlt⟩, flush0_7 _, ?_⟩
  rw [mem_block]
  intro a
  match a with
  | ⟨0, _⟩ =>
    show win0_7.index ⟨(i 0).val / 1024, hlt⟩ (0 : Fin 2) * 1024 ≤ (i 0).val
      ∧ (i 0).val < win0_7.index ⟨(i 0).val / 1024, hlt⟩ (0 : Fin 2) * 1024 + 1024
    rw [e0']; omega
  | ⟨1, _⟩ =>
    show win0_7.index ⟨(i 0).val / 1024, hlt⟩ (1 : Fin 2) * 256 ≤ (i 1).val
      ∧ (i 1).val < win0_7.index ⟨(i 0).val / 1024, hlt⟩ (1 : Fin 2) * 256 + 256
    rw [e1]; omega

/-- The result array after the run. -/
theorem final (c : Dev nD) : (dats m 0 c).arrAt 7 cfg0.N = result m c :=
  (dats m 0 c).arrAt_eq_of_cover 7 (result m c) (fun t _ => written_back m c t) covered

/-- The run, read: the result array ends at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.ReferenceIdeal.Blocks

end
-- ==== Proof.lean ====
/- The certificate of the kernel against its reference.

   Both programs are one pipelined call computing, row by row, a perceptron of two rectified hidden layers and a linear
   output layer (Proof/MlpSpec.lean). The kernel deals the 65536 rows to 16 grid points in blocks of 4096, narrows every
   operand of its products to bf16 and keeps narrowed copies of the weights in scratch buffers from the first point on;
   the reference deals the rows to 64 grid points in blocks of 1024 and multiplies in f32. On the extended reals narrowing
   is the identity and a row's result does not depend on which block carries it, so each program's result array is the
   perceptron of its whole arguments (Proof/KernelValue.lean, Proof/ReferenceValue.lean): the same function of arguments
   that agree. No law of arithmetic is used between the two sides — they are one formula — so the precondition is not
   opened. The three frames are the generated ones; the idealization rewrote nothing, so there is nothing to preserve. -/
import proofs.«129064_g2000503642115552_pallasbulk_442_40_alg».proof.Defs
import proofs.«129064_g2000503642115552_pallasbulk_442_40_alg».proof.Proof.Gen.Kernel
import proofs.«129064_g2000503642115552_pallasbulk_442_40_alg».proof.Proof.Gen.Kernel.Frame
import proofs.«129064_g2000503642115552_pallasbulk_442_40_alg».proof.Proof.Gen.KernelIdeal
import proofs.«129064_g2000503642115552_pallasbulk_442_40_alg».proof.Proof.Gen.KernelIdeal.Frame
import proofs.«129064_g2000503642115552_pallasbulk_442_40_alg».proof.Proof.Gen.KernelIdeal.Value
import proofs.«129064_g2000503642115552_pallasbulk_442_40_alg».proof.Proof.Gen.ReferenceIdeal
import proofs.«129064_g2000503642115552_pallasbulk_442_40_alg».proof.Proof.Gen.ReferenceIdeal.Frame
import proofs.«129064_g2000503642115552_pallasbulk_442_40_alg».proof.Proof.Gen.ReferenceIdeal.Value
import proofs.«129064_g2000503642115552_pallasbulk_442_40_alg».proof.Proof.Gen.Pre_finite_inputs
import proofs.«129064_g2000503642115552_pallasbulk_442_40_alg».proof.Proof.KernelValue
import proofs.«129064_g2000503642115552_pallasbulk_442_40_alg».proof.Proof.ReferenceValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the idealized kernel … -/
theorem frame_kernelIdeal : Cert.frame_KernelIdeal := fun m ρ _ => Cert.KernelIdeal.Gen.frame m ρ

/-- … and the idealized reference. -/
theorem frame_referenceIdeal : Cert.frame_ReferenceIdeal := fun m ρ _ => Cert.ReferenceIdeal.Gen.frame m ρ

/-- The idealization rewrote no operation. -/
theorem preserves : Cert.preserves_Kernel_KernelIdeal := trivial

/-- From memories that agree on the arguments both idealized programs end with the perceptron of those arguments in the
    result array. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Blocks.run m' ρ')
  obtain ⟨e0, e1, e2, e3, e4, e5, e6⟩ := hagree c
  unfold Cert.ReferenceIdeal.Blocks.result Cert.KernelIdeal.Blocks.result
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
